-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16 : Shape := ⟨1, ![16]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16x4096x1024 : S_.BroadcastsInDim S16x4096x1024 (![] : Fin 0 → Fin S16x4096x1024.rank)
  reducesTo_S16x4096x1024_S_d0_1_2 : S16x4096x1024.ReducesTo [0, 1, 2] S_
  bcast_S_S16x4096 : S_.BroadcastsInDim S16x4096 (![] : Fin 0 → Fin S16x4096.rank)
  reducesTo_S16x4096_S_d0_1 : S16x4096.ReducesTo [0, 1] S_
  bcast_S_S16x1024x4096 : S_.BroadcastsInDim S16x1024x4096 (![] : Fin 0 → Fin S16x1024x4096.rank)
  reducesTo_S16x1024x4096_S_d0_1_2 : S16x1024x4096.ReducesTo [0, 1, 2] S_
  bcast_S_S16x1024 : S_.BroadcastsInDim S16x1024 (![] : Fin 0 → Fin S16x1024.rank)
  reducesTo_S16x1024_S_d0_1 : S16x1024.ReducesTo [0, 1] S_

variable [Facts]

def fn_part1 {F : FTy → Type} [FloatOps F] (main_arg5 : FVec F S16x1024 .f32) (main_v13 : IVec S_ 1) (main_v16 : IVec S16x1024x4096 1) : IVec S_ 1 :=
  let main_c_5 : IVec S_ 1 := constantI S_ 1 1#1
  let main_v17 : IVec S_ 1 := (fun x v => Host.reduce IntOp.andi x v reducesTo_S16x1024x4096_S_d0_1_2 h_S_) main_v16 main_c_5
  let main_v18 : IVec S_ 1 := andi main_v13 main_v17
  let main_v19 : FVec F S16x1024 .f32 := Host.absf main_arg5
  let main_cst_6 : FVec F S_ .f32 := constant S_ .f32 0x7F800000#32
  let main_v20 : FVec F S16x1024 .f32 := broadcastInDim S16x1024 ![] bcast_S_S16x1024 main_cst_6
  let main_v21 : IVec S16x1024 1 := cmpf .olt main_v19 main_v20
  let main_c_7 : IVec S_ 1 := constantI S_ 1 1#1
  let main_v22 : IVec S_ 1 := (fun x v => Host.reduce IntOp.andi x v reducesTo_S16x1024_S_d0_1 h_S_) main_v21 main_c_7
  let main_v23 : IVec S_ 1 := andi main_v18 main_v22
  main_v23

def fn {F : FTy → Type} [FloatOps F] (main_arg0 : FVec F S16384x1024 .f32) (main_arg1 : IVec S16 32) (main_arg2 : FVec F S16x4096x1024 .f32) (main_arg3 : FVec F S16x4096 .f32) (main_arg4 : FVec F S16x1024x4096 .f32) (main_arg5 : FVec F S16x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16x4096x1024 .f32 := Host.absf main_arg2
  let main_cst_0 : FVec F S_ .f32 := constant S_ .f32 0x7F800000#32
  let main_v5 : FVec F S16x4096x1024 .f32 := broadcastInDim S16x4096x1024 ![] bcast_S_S16x4096x1024 main_cst_0
  let main_v6 : IVec S16x4096x1024 1 := cmpf .olt main_v4 main_v5
  let main_c_1 : IVec S_ 1 := constantI S_ 1 1#1
  let main_v7 : IVec S_ 1 := (fun x v => Host.reduce IntOp.andi x v reducesTo_S16x4096x1024_S_d0_1_2 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S16x1024x4096 .f32 := Host.absf main_arg4
  let main_cst_4 : FVec F S_ .f32 := constant S_ .f32 0x7F800000#32
  let main_v15 : FVec F S16x1024x4096 .f32 := broadcastInDim S16x1024x4096 ![] bcast_S_S16x1024x4096 main_cst_4
  let main_v16 : IVec S16x1024x4096 1 := cmpf .olt main_v14 main_v15
  fn_part1 (F := F) main_arg5 main_v13 main_v16
-- ==== Kernel.lean ====
abbrev S16384x1024 : Shape := ⟨2, ![16384, 1024]⟩
abbrev S16 : Shape := ⟨1, ![16]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S16x1024x1024 : Shape := ⟨3, ![16, 1024, 1024]⟩
abbrev S1x256x1024 : Shape := ⟨3, ![1, 256, 1024]⟩
abbrev S1x4096x1024 : Shape := ⟨3, ![1, 4096, 1024]⟩
abbrev S1x1024x4096 : Shape := ⟨3, ![1, 1024, 4096]⟩
abbrev S256x1024 : Shape := ⟨2, ![256, 1024]⟩
abbrev S4096x1024 : Shape := ⟨2, ![4096, 1024]⟩
abbrev S1024x4096 : Shape := ⟨2, ![1024, 4096]⟩
abbrev S1x4096 : Shape := ⟨2, ![1, 4096]⟩
abbrev S4096 : Shape := ⟨1, ![4096]⟩
abbrev S1x1024 : Shape := ⟨2, ![1, 1024]⟩
abbrev S1024 : Shape := ⟨1, ![1024]⟩
abbrev S256x4096 : Shape := ⟨2, ![256, 4096]⟩

abbrev nBuf : Space → Nat
  | .hbm => 12
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S16, .i32⟩
  | .hbm, ⟨2, _⟩ => ⟨S16x4096x1024, .f32⟩
  | .hbm, ⟨3, _⟩ => ⟨S16x4096, .f32⟩
  | .hbm, ⟨4, _⟩ => ⟨S16x1024x4096, .f32⟩
  | .hbm, ⟨5, _⟩ => ⟨S16x1024, .f32⟩
  | .hbm, ⟨6, _⟩ => ⟨S16x1024x1024, .f32⟩
  | .hbm, ⟨7, _⟩ => ⟨S16x1024x1024, .bf16⟩
  | .hbm, ⟨8, _⟩ => ⟨S16x4096x1024, .bf16⟩
  | .hbm, ⟨9, _⟩ => ⟨S16x1024x4096, .bf16⟩
  | .hbm, ⟨10, _⟩ => ⟨S16x1024x1024, .f32⟩
  | .hbm, ⟨11, _⟩ => ⟨S16384x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S16x4096, .f32⟩
  | .local _ .vmem, ⟨5, _⟩ => ⟨S1x1024x4096, .bf16⟩
  | .local _ .vmem, ⟨6, _⟩ => ⟨S1x1024x4096, .bf16⟩
  | .local _ .vmem, ⟨7, _⟩ => ⟨S16x1024, .f32⟩
  | .local _ .vmem, ⟨8, _⟩ => ⟨S1x256x1024, .f32⟩
  | .local _ .vmem, ⟨9, _⟩ => ⟨S1x256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_off1 (i : grid0.Coords) : Fin 2 → Nat :=
  let arg0 : BitVec 32 := BitVec.ofNat 32 (i 0).val
  let v6 : Index := Scalar.indexCast arg0
  let c0_8 : Index := 0#32
  ![v6.toNat, 0]
def k0_off2 (i : grid0.Coords) : Fin 2 → Nat :=
  let arg0 : BitVec 32 := BitVec.ofNat 32 (i 0).val
  let v9 : Index := Scalar.indexCast arg0
  let c0_9 : Index := 0#32
  ![v9.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S16x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S16384x1024_S16x1024x1024 : S16384x1024.ShapeCasts S16x1024x1024
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  h_S1x4096 : 0 < S1x4096.numel
  shapeCasts_S1x4096_S4096 : S1x4096.ShapeCasts S4096
  h_S1x1024 : 0 < S1x1024.numel
  shapeCasts_S1x1024_S1024 : S1x1024.ShapeCasts S1024
  shapeCasts_S4096_S1x4096 : S4096.ShapeCasts S1x4096
  broadcasts_S1x4096_S256x4096 : S1x4096.Broadcasts S256x4096
  shapeCasts_S1024_S1x1024 : S1024.ShapeCasts S1x1024
  broadcasts_S1x1024_S256x1024 : S1x1024.Broadcasts S256x1024
  shapeCasts_S256x1024_S1x256x1024 : S256x1024.ShapeCasts S1x256x1024
  shapeCasts_S16x1024x1024_S16384x1024 : S16x1024x1024.ShapeCasts S16384x1024
  dot_S256x1024_S4096x1024_S256x4096_1_1_0_0_n_n_wf : DotDims.WF S256x1024 S4096x1024 S256x4096 [1] [1] [0] [0] [] []
  dot_S256x4096_S1024x4096_S256x1024_1_1_0_0_n_n_wf : DotDims.WF S256x4096 S1024x4096 S256x1024 [1] [1] [0] [0] [] []
  hrank0 : 0 < grid0.rank
  k0_off1_inb : ∀ i : grid0.Coords, ∀ a, (k0_off1 i) a + S1x4096.size a ≤ S16x4096.size a
  k0_off2_inb : ∀ i : grid0.Coords, ∀ a, (k0_off2 i) a + S1x1024.size a ≤ S16x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x1024x1024.size a
  hwx0_0 : ∀ i : grid0.Coords, EltTy.bits .bf16 = 32 ∨ (Rect.block (s := S16x1024x1024) S1x256x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x1024.size a ≤ S16x4096x1024.size a
  hwx0_1 : ∀ i : grid0.Coords, EltTy.bits .bf16 = 32 ∨ (Rect.block (s := S16x4096x1024) S1x4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x4096.size a ≤ S16x4096.size a
  hwx0_2 : ∀ i : grid0.Coords, EltTy.bits .f32 = 32 ∨ (Rect.block (s := S16x4096) S16x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x4096.size a ≤ S16x1024x4096.size a
  hwx0_3 : ∀ i : grid0.Coords, EltTy.bits .bf16 = 32 ∨ (Rect.block (s := S16x1024x4096) S1x1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16x1024.size a ≤ S16x1024.size a
  hwx0_4 : ∀ i : grid0.Coords, EltTy.bits .f32 = 32 ∨ (Rect.block (s := S16x1024) S16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S16x1024x1024.size a
  hwx0_5 : ∀ i : grid0.Coords, EltTy.bits .f32 = 32 ∨ (Rect.block (s := S16x1024x1024) S1x256x1024.size (cc0_transform_5 i) (hinb0_5 i)).WholeWords (EltTy.packing .f32)

variable [Facts₀]

def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf
def dot_S256x4096_S1024x4096_S256x1024_1_1_0_0_n_n : DotDims S256x4096 S1024x4096 S256x1024 where
  lhsContracting := [1]
  rhsContracting := [1]
  lhsNonContracting := [0]
  rhsNonContracting := [0]
  lhsBatch := []
  rhsBatch := []
  wf := dot_S256x4096_S1024x4096_S256x1024_1_1_0_0_n_n_wf

abbrev win0_0 : Pipeline.Window sig grid0 :=
  Pipeline.Window.ofSpec (Memref.whole main_v1) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16 : Shape := ⟨1, ![16]⟩
abbrev S16x4096x1024 : Shape := ⟨3, ![16, 4096, 1024]⟩
abbrev S16x4096 : Shape := ⟨2, ![16, 4096]⟩
abbrev S16x1024x4096 : Shape := ⟨3, ![16, 1024, 4096]⟩
abbrev S16x1024 : Shape := ⟨2, ![16, 1024]⟩
abbrev S16x1024x1024 : Shape := ⟨3, ![16, 1024, 1024]⟩
abbrev S16x1x4096 : Shape := ⟨3, ![16, 1, 4096]⟩
abbrev S_ : Shape := ⟨0, ![]⟩
abbrev S16x1x1024 : Shape := ⟨3, ![16, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16, .i32⟩
  | .hbm, ⟨2, _⟩ => ⟨S16x4096x1024, .f32⟩
  | .hbm, ⟨3, _⟩ => ⟨S16x4096, .f32⟩
  | .hbm, ⟨4, _⟩ => ⟨S16x1024x4096, .f32⟩
  | .hbm, ⟨5, _⟩ => ⟨S16x1024, .f32⟩
  | .hbm, ⟨6, _⟩ => ⟨S16x1024x1024, .f32⟩
  | .hbm, ⟨7, _⟩ => ⟨S16x1024x4096, .f32⟩
  | .hbm, ⟨8, _⟩ => ⟨S16x1x4096, .f32⟩
  | .hbm, ⟨9, _⟩ => ⟨S16x1024x4096, .f32⟩
  | .hbm, ⟨10, _⟩ => ⟨S16x1024x4096, .f32⟩
  | .hbm, ⟨11, _⟩ => ⟨S_, .f32⟩
  | .hbm, ⟨12, _⟩ => ⟨S16x1024x4096, .f32⟩
  | .hbm, ⟨13, _⟩ => ⟨S16x1024x4096, .f32⟩
  | .hbm, ⟨14, _⟩ => ⟨S16x1024x1024, .f32⟩
  | .hbm, ⟨15, _⟩ => ⟨S16x1x1024, .f32⟩
  | .hbm, ⟨16, _⟩ => ⟨S16x1024x1024, .f32⟩
  | .hbm, ⟨17, _⟩ => ⟨S16x1024x1024, .f32⟩
  | .hbm, ⟨18, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩

abbrev nD : Nat := 1
abbrev τ : Topo := Topo.v7x

variable {F : FTy → Type} [FloatOps F]

class Facts₀ : Prop where
  shapeCasts_S16384x1024_S16x1024x1024 : S16384x1024.ShapeCasts S16x1024x1024
  bcast_S16x4096_S16x1x4096_0_2 : S16x4096.BroadcastsInDim S16x1x4096 (![0, 2] : Fin 2 → Fin S16x1x4096.rank)
  bcast_S16x1x4096_S16x1024x4096_0_1_2 : S16x1x4096.BroadcastsInDim S16x1024x4096 (![0, 1, 2] : Fin 3 → Fin S16x1024x4096.rank)
  bcast_S_S16x1024x4096 : S_.BroadcastsInDim S16x1024x4096 (![] : Fin 0 → Fin S16x1024x4096.rank)
  bcast_S16x1024_S16x1x1024_0_2 : S16x1024.BroadcastsInDim S16x1x1024 (![0, 2] : Fin 2 → Fin S16x1x1024.rank)
  bcast_S16x1x1024_S16x1024x1024_0_1_2 : S16x1x1024.BroadcastsInDim S16x1024x1024 (![0, 1, 2] : Fin 3 → Fin S16x1024x1024.rank)
  shapeCasts_S16x1024x1024_S16384x1024 : S16x1024x1024.ShapeCasts S16384x1024
  dot_S16x1024x1024_S16x4096x1024_S16x1024x4096_2_2_1_1_0_0_wf : DotDims.WF S16x1024x1024 S16x4096x1024 S16x1024x4096 [2] [2] [1] [1] [0] [0]
  dot_S16x1024x4096_S16x1024x4096_S16x1024x1024_2_2_1_1_0_0_wf : DotDims.WF S16x1024x4096 S16x1024x4096 S16x1024x1024 [2] [2] [1] [1] [0] [0]

variable [Facts₀]

def dot_S16x1024x1024_S16x4096x1024_S16x1024x4096_2_2_1_1_0_0 : DotDims S16x1024x1024 S16x4096x1024 S16x1024x4096 where
  lhsContracting := [2]
  rhsContracting := [2]
  lhsNonContracting := [1]
  rhsNonContracting := [1]
  lhsBatch := [0]
  rhsBatch := [0]
  wf := dot_S16x1024x1024_S16x4096x1024_S16x1024x4096_2_2_1_1_0_0_wf
def dot_S16x1024x4096_S16x1024x4096_S16x1024x1024_2_2_1_1_0_0 : DotDims S16x1024x4096 S16x1024x4096 S16x1024x1024 where
  lhsContracting := [2]
  rhsContracting := [2]
  lhsNonContracting := [1]
  rhsNonContracting := [1]
  lhsBatch := [0]
  rhsBatch := [0]
  wf := dot_S16x1024x4096_S16x1024x4096_S16x1024x1024_2_2_1_1_0_0_wf

class Facts : Prop extends Facts₀ where

variable [Facts]
-- ==== Proof.Body.lean ====
/-
  What one grid point leaves in the output's staging buffer.

  The kernel body reads the token tile, expert `e`'s two weight matrices, and — out of the full bias tables, which
  are staged whole — row `e` of each (`e` the first grid coordinate); it ends with one store that covers the whole
  output tile. So the buffer ends holding the body's one payload applied to those five values. Stated for any float
  instance.
-/
import proofs.«128846_j1743756722200_1_alg».proof.Proof.Gen.KernelIdeal.Frame
import Idealize.ShloMosaic.Lib.Pipeline.Value

noncomputable section

open Idealize.ShloMosaic Idealize.ShloMosaic.TcCoe Idealize.SL.Sem

namespace Cert.KernelIdeal.Body

open Cert.KernelIdeal Cert.KernelIdeal.Gen

variable {F : FTy → Type} [FloatOps F]

theorem zero3 : (![0, 0, 0] : Fin 3 → Nat) = fun _ => 0 := funext fun a => by fin_cases a <;> rfl

/-- Row `e` of the first bias table, as the body loads it at grid coordinates `i`. -/
abbrev biasRow1 (i : grid0.Coords) (x2 : Vec F S16x4096 .f32) : Vec F S1x4096 .f32 :=
  View.ld x2 (Rect.unit (k0_off1 i) S1x4096.size (k0_off1_inb i))

/-- Row `e` of the second bias table. -/
abbrev biasRow2 (i : grid0.Coords) (x4 : Vec F S16x1024 .f32) : Vec F S1x1024 .f32 :=
  View.ld x4 (Rect.unit (k0_off2 i) S1x1024.size (k0_off2_inb i))

/-- The output's staging buffer after the body: the payload of the token tile `x0`, the weight blocks `x1`, `x3`
    and the two bias rows. The one store covers the buffer, and every load but the bias rows reads a whole buffer. -/
theorem out_eq (c : Dev nD) (i : grid0.Coords) (arg2 : Memref sig .tc .vmem S1x256x1024 .bf16) (harg2 : arg2.IsWhole)
    (arg3 : Memref sig .tc .vmem S1x4096x1024 .bf16) (harg3 : arg3.IsWhole) (arg4 : Memref sig .tc .vmem S16x4096 .f32) (harg4 : arg4.IsWhole)
    (arg5 : Memref sig .tc .vmem S1x1024x4096 .bf16) (harg5 : arg5.IsWhole) (arg6 : Memref sig .tc .vmem S16x1024 .f32) (harg6 : arg6.IsWhole)
    (arg7 : Memref sig .tc .vmem S1x256x1024 .f32) (harg7 : arg7.IsWhole)
    (x0 : Vec F S1x256x1024 .bf16) (x1 : Vec F S1x4096x1024 .bf16) (x2 : Vec F S16x4096 .f32) (x3 : Vec F S1x1024x4096 .bf16) (x4 : Vec F S16x1024 .f32) :
    out0_A_5 c i arg2 harg2 arg3 harg3 arg4 harg4 arg5 harg5 arg6 harg6 arg7 harg7 x0 x1 x2 x3 x4
      = k0_pay1 x0 x1 x3 (biasRow1 i x2) (biasRow2 i x4) := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_unit_zero zero3]
  simp only [View.readAt_eq_ld, harg2.read_unread, harg3.read_unread, harg4.read_unread, harg5.read_unread, harg6.read_unread,
    View.ld_unit_zero (S := S1x256x1024) zero3, View.ld_unit_zero (S := S1x4096x1024) zero3, View.ld_unit_zero (S := S1x1024x4096) zero3]

/-- A bias row read at a column: the table's entry at row `e` (the first grid coordinate) and that column. -/
theorem biasRow1_apply (i : grid0.Coords) (x2 : Vec F S16x4096 .f32) (y : S1x4096.Idx) (z : S16x4096.Idx)
    (h0 : (z 0).val = (i 0).val) (h1 : (z 1).val = (y 1).val) : biasRow1 i x2 y = x2 z := by
  show x2 _ = x2 z
  refine congrArg x2 (funext fun a => Fin.ext ?_)
  have hy : (y 0).val = 0 := by have := (y 0).isLt; simp at this; omega
  have e := k0_off1_eq i
  match a with
  | ⟨0, _⟩ => show (k0_off1 i) 0 + 1 * (y 0).val = (z 0).val; rw [e, h0, hy]; rfl
  | ⟨1, _⟩ => show (k0_off1 i) 1 + 1 * (y 1).val = (z 1).val; rw [e, h1]; show 0 + 1 * (y 1).val = (y 1).val; omega

theorem biasRow2_apply (i : grid0.Coords) (x4 : Vec F S16x1024 .f32) (y : S1x1024.Idx) (z : S16x1024.Idx)
    (h0 : (z 0).val = (i 0).val) (h1 : (z 1).val = (y 1).val) : biasRow2 i x4 y = x4 z := by
  show x4 _ = x4 z
  refine congrArg x4 (funext fun a => Fin.ext ?_)
  have hy : (y 0).val = 0 := by have := (y 0).isLt; simp at this; omega
  have e := k0_off2_eq i
  match a with
  | ⟨0, _⟩ => show (k0_off2 i) 0 + 1 * (y 0).val = (z 0).val; rw [e, h0, hy]; rfl
  | ⟨1, _⟩ => show (k0_off2 i) 1 + 1 * (y 1).val = (z 1).val; rw [e, h1]; show 0 + 1 * (y 1).val = (y 1).val; omega

end Cert.KernelIdeal.Body

end
-- ==== Proof.LibDense.lean ====
/-
  The pieces of a dense layer, read one entry at a time, on the extended reals.

  * `mmT x w` is the product of `x : [M, K]` with the TRANSPOSE of `w : [N, K]`: entry (i, j) is the sum over k of
    x (i, k) · w (j, k). A contraction whose dimension numbers contract the second axis of both operands denotes
    exactly this sum (`sum_contr_eq_mmT`).
  * `biasRelu a b` adds the row `b : [1, K]` to every row of `a : [M, K]` and takes the maximum with a threshold `z`;
    `addRow a b` only adds the row.
-/
import Idealize.ShloMosaic.PureOps.Ideal.Laws
import Idealize.ShloMosaic.Lib.ValueIdx

noncomputable section

namespace Cert.LibDense

open Idealize.ShloMosaic Idealize.ShloMosaic.ValueIdx

/-- `x · wᵀ`: entry (i, j) is the sum over k of x (i, k) · w (j, k). -/
def mmT {M K N : Nat} (x : (⟨2, ![M, K]⟩ : Shape).Idx → EReal) (w : (⟨2, ![N, K]⟩ : Shape).Idx → EReal) :
    (⟨2, ![M, N]⟩ : Shape).Idx → EReal :=
  fun i => ∑ k : Fin K, x (ix2 (i 0) k) * w (ix2 (i 1) k)

/-- Row `b` added to every row of `a`, then the maximum with `z` entry by entry. -/
def biasRelu {M K : Nat} (z : EReal) (a : (⟨2, ![M, K]⟩ : Shape).Idx → EReal) (b : (⟨2, ![1, K]⟩ : Shape).Idx → EReal) :
    (⟨2, ![M, K]⟩ : Shape).Idx → EReal :=
  fun i => max (a i + b (ix2 (0 : Fin 1) (i 1))) z

/-- Row `b` added to every row of `a`. -/
def addRow {M K : Nat} (a : (⟨2, ![M, K]⟩ : Shape).Idx → EReal) (b : (⟨2, ![1, K]⟩ : Shape).Idx → EReal) :
    (⟨2, ![M, K]⟩ : Shape).Idx → EReal :=
  fun i => a i + b (ix2 (0 : Fin 1) (i 1))

/-- The sum over the index of a contraction of BOTH operands' second axes is `mmT`: the left operand is read along
    row `i 0`, the right operand along row `i 1`. The four hypotheses say which coordinate of the output index or of
    the contraction index each operand coordinate is. -/
theorem sum_contr_eq_mmT {M K N : Nat} (D : DotDims ⟨2, ![M, K]⟩ ⟨2, ![N, K]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (i 1).val)
    (hr1 : ∀ (i : (⟨2, ![M, N]⟩ : Shape).Idx) (q : D.contr.Idx), (D.rhsIdx i q 1).val = (q ⟨0, by omega⟩).val)
    (l : (⟨2, ![M, K]⟩ : Shape).Idx → EReal) (r : (⟨2, ![N, K]⟩ : Shape).Idx → EReal) (i : (⟨2, ![M, N]⟩ : Shape).Idx) :
    ∑ q : D.contr.Idx, l (D.lhsIdx i q) * r (D.rhsIdx i q) = mmT l r i := by
  unfold mmT
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 (i 1) k := funext fun a => Fin.ext (by
    match a with
    | ⟨0, _⟩ => exact hr0 _ _
    | ⟨1, _⟩ => exact (hr1 _ _).trans hk)
  rw [el, er]
  rfl

end Cert.LibDense

end
-- ==== Proof.Spec.lean ====
/-
  The function both programs compute, stated once over literal shapes, on the extended reals.

  Tokens are grouped by expert: 16 experts, 1024 tokens each, every token a vector of 1024 features. Expert `e` owns
  two weight matrices `w1[e] : [4096, 1024]`, `w2[e] : [1024, 4096]` and two bias rows `b1[e] : [4096]`,
  `b2[e] : [1024]`. For token `n` of expert `e` and output feature `c`

      ffn[e, n, c] = (∑ k < 4096, max (∑ d < 1024, x[e, n, d] * w1[e, k, d] + b1[e, k]) 0 * w2[e, c, k]) + b2[e, c]

  — a hidden layer of 4096 rectified units between two affine maps. (The threshold of the rectifier is written as the
  single-precision word of all zero bits, the spelling both programs use; it is never evaluated.)

  `tile` is the same network on ONE expert's matrices and a tile of token rows, written with the dense-layer pieces of
  `LibDense`; `tile_eq_ffn` says that a tile whose rows are rows of the grouped arrays computes the matching entries
  of `ffn`. Only equalities of the summands are used: no law of the extended reals beyond congruence.
-/
import Idealize.ShloMosaic.PureOps.Ideal
import Idealize.ShloMosaic.Lib.ValueIdx
import proofs.«128846_j1743756722200_1_alg».proof.Proof.LibDense

noncomputable section

namespace Cert.Spec

open Idealize.ShloMosaic Idealize.ShloMosaic.ValueIdx Cert.LibDense

/-- The rectifier's threshold, as both programs spell it. -/
abbrev thr : EReal := Ideal.ofBits .f32 0x00000000#32

/-- The experts' feed-forward network on the grouped tokens: entry (e, n, c). -/
def ffn (x : (⟨3, ![16, 1024, 1024]⟩ : Shape).Idx → EReal) (w1 : (⟨3, ![16, 4096, 1024]⟩ : Shape).Idx → EReal)
    (b1 : (⟨2, ![16, 4096]⟩ : Shape).Idx → EReal) (w2 : (⟨3, ![16, 1024, 4096]⟩ : Shape).Idx → EReal)
    (b2 : (⟨2, ![16, 1024]⟩ : Shape).Idx → EReal) : (⟨3, ![16, 1024, 1024]⟩ : Shape).Idx → EReal :=
  fun i => (∑ k : Fin 4096, max ((∑ d : Fin 1024, x (ix3 (i 0) (i 1) d) * w1 (ix3 (i 0) k d)) + b1 (ix2 (i 0) k)) thr
      * w2 (ix3 (i 0) (i 2) k)) + b2 (ix2 (i 0) (i 2))

/-- One expert's network on a tile of 256 token rows: `X · W1ᵀ`, plus the bias row, rectified, times `W2ᵀ`, plus
    the second bias row. -/
def tile (X : (⟨2, ![256, 1024]⟩ : Shape).Idx → EReal) (W1 : (⟨2, ![4096, 1024]⟩ : Shape).Idx → EReal)
    (B1 : (⟨2, ![1, 4096]⟩ : Shape).Idx → EReal) (W2 : (⟨2, ![1024, 4096]⟩ : Shape).Idx → EReal)
    (B2 : (⟨2, ![1, 1024]⟩ : Shape).Idx → EReal) : (⟨2, ![256, 1024]⟩ : Shape).Idx → EReal :=
  addRow (mmT (biasRelu thr (mmT X W1) B1) W2) B2

/-- The tile, entry by entry, as the two nested sums. -/
theorem tile_apply (X : (⟨2, ![256, 1024]⟩ : Shape).Idx → EReal) (W1 : (⟨2, ![4096, 1024]⟩ : Shape).Idx → EReal)
    (B1 : (⟨2, ![1, 4096]⟩ : Shape).Idx → EReal) (W2 : (⟨2, ![1024, 4096]⟩ : Shape).Idx → EReal)
    (B2 : (⟨2, ![1, 1024]⟩ : Shape).Idx → EReal) (r : Fin 256) (c : Fin 1024) :
    tile X W1 B1 W2 B2 (ix2 r c)
      = (∑ k : Fin 4096, max ((∑ d : Fin 1024, X (ix2 r d) * W1 (ix2 k d)) + B1 (ix2 (0 : Fin 1) k)) thr * W2 (ix2 c k))
        + B2 (ix2 (0 : Fin 1) c) := rfl

/-- A tile whose token row `r` is row `(E, R)` of the grouped tokens, and whose matrices and bias rows are expert
    `E`'s, computes entry `(E, R, c)` of the network: the summands agree one by one. -/
theorem tile_eq_ffn (x : (⟨3, ![16, 1024, 1024]⟩ : Shape).Idx → EReal) (w1 : (⟨3, ![16, 4096, 1024]⟩ : Shape).Idx → EReal)
    (b1 : (⟨2, ![16, 4096]⟩ : Shape).Idx → EReal) (w2 : (⟨3, ![16, 1024, 4096]⟩ : Shape).Idx → EReal)
    (b2 : (⟨2, ![16, 1024]⟩ : Shape).Idx → EReal)
    (X : (⟨2, ![256, 1024]⟩ : Shape).Idx → EReal) (W1 : (⟨2, ![4096, 1024]⟩ : Shape).Idx → EReal)
    (B1 : (⟨2, ![1, 4096]⟩ : Shape).Idx → EReal) (W2 : (⟨2, ![1024, 4096]⟩ : Shape).Idx → EReal)
    (B2 : (⟨2, ![1, 1024]⟩ : Shape).Idx → EReal) (E : Fin 16) (R : Fin 1024) (r : Fin 256) (c : Fin 1024)
    (hX : ∀ d : Fin 1024, X (ix2 r d) = x (ix3 E R d))
    (hW1 : ∀ (k : Fin 4096) (d : Fin 1024), W1 (ix2 k d) = w1 (ix3 E k d))
    (hB1 : ∀ k : Fin 4096, B1 (ix2 (0 : Fin 1) k) = b1 (ix2 E k))
    (hW2 : ∀ k : Fin 4096, W2 (ix2 c k) = w2 (ix3 E c k))
    (hB2 : B2 (ix2 (0 : Fin 1) c) = b2 (ix2 E c)) :
    tile X W1 B1 W2 B2 (ix2 r c) = ffn x w1 b1 w2 b2 (ix3 E R c) := by
  rw [tile_apply, hB2]
  show _ = (∑ k : Fin 4096, max ((∑ d : Fin 1024, x (ix3 E R d) * w1 (ix3 E k d)) + b1 (ix2 E k)) thr * w2 (ix3 E c k))
      + b2 (ix2 E c)
  refine congrArg (· + b2 (ix2 E c)) (Finset.sum_congr rfl fun k _ => ?_)
  rw [hB1 k, hW2 k]
  refine congrArg (fun s => max (s + b1 (ix2 E k)) thr * w2 (ix3 E c k)) (Finset.sum_congr rfl fun d _ => ?_)
  rw [hX d, hW1 k d]

end Cert.Spec

end
-- ==== Proof.Payload.lean ====
/-
  The body's arithmetic is one tile of the network.

  The payload takes the token tile, the two weight blocks (each a [1, …] block of its array) and the two bias rows, and
  computes: drop the blocks' leading unit axis; multiply the tokens by the transpose of the first weights (a
  contraction of both operands' second axes, into a zero accumulator); add the bias row to every token row; take
  the maximum with zero; multiply by the transpose of the second weights; add the second bias row; put the unit axis
  back. Changes of float format are the identity on the extended reals. Read entry by entry this is `Spec.tile`.
-/
import proofs.«128846_j1743756722200_1_alg».proof.Proof.Gen.KernelIdeal.Skeleton
import proofs.«128846_j1743756722200_1_alg».proof.Proof.Spec
import Idealize.ShloMosaic.Lib.Pipeline.Value
import Idealize.ShloMosaic.Lib.ValueLayout
import Idealize.ShloMosaic.PureOps.Ideal.Laws

noncomputable section

open Idealize.ShloMosaic Idealize.ShloMosaic.ValueIdx

namespace Cert.KernelIdeal.Payload

open Cert.KernelIdeal Cert.KernelIdeal.Gen Cert.LibDense Cert.Spec

/-- The first layer's contraction: tokens [256, 1024] against weights [4096, 1024], second axes contracted. -/
abbrev D1 : DotDims S256x1024 S4096x1024 S256x4096 := dot_S256x1024_S4096x1024_S256x4096_1_1_0_0_n_n
/-- The second layer's: hidden [256, 4096] against weights [1024, 4096], second axes contracted. -/
abbrev D2 : DotDims S256x4096 S1024x4096 S256x1024 := dot_S256x4096_S1024x4096_S256x1024_1_1_0_0_n_n

/-! ### Which coordinate each operand coordinate is -/

theorem d1_l0 (i : S256x4096.Idx) (q : D1.contr.Idx) : (D1.lhsIdx i q 0).val = (i 0).val := by
  unfold DotDims.lhsIdx
  rw [dif_neg (show ¬(0 : Fin S256x1024.rank) ∈ D1.lhsBatch by decide), dif_pos (show (0 : Fin S256x1024.rank) ∈ D1.lhsNonContracting by decide)]
  rfl
theorem d1_l1 (i : S256x4096.Idx) (q : D1.contr.Idx) : (D1.lhsIdx i q 1).val = (q ⟨0, by decide⟩).val :=
  D1.lhsIdx_val_of_single rfl i q
theorem d1_r0 (i : S256x4096.Idx) (q : D1.contr.Idx) : (D1.rhsIdx i q 0).val = (i 1).val := by
  unfold DotDims.rhsIdx
  rw [dif_neg (show ¬(0 : Fin S4096x1024.rank) ∈ D1.rhsBatch by decide), dif_pos (show (0 : Fin S4096x1024.rank) ∈ D1.rhsNonContracting by decide)]
  rfl
theorem d1_r1 (i : S256x4096.Idx) (q : D1.contr.Idx) : (D1.rhsIdx i q 1).val = (q ⟨0, by decide⟩).val :=
  D1.rhsIdx_val_of_single rfl i q

theorem d2_l0 (i : S256x1024.Idx) (q : D2.contr.Idx) : (D2.lhsIdx i q 0).val = (i 0).val := by
  unfold DotDims.lhsIdx
  rw [dif_neg (show ¬(0 : Fin S256x4096.rank) ∈ D2.lhsBatch by decide), dif_pos (show (0 : Fin S256x4096.rank) ∈ D2.lhsNonContracting by decide)]
  rfl
theorem d2_l1 (i : S256x1024.Idx) (q : D2.contr.Idx) : (D2.lhsIdx i q 1).val = (q ⟨0, by decide⟩).val :=
  D2.lhsIdx_val_of_single rfl i q
theorem d2_r0 (i : S256x1024.Idx) (q : D2.contr.Idx) : (D2.rhsIdx i q 0).val = (i 1).val := by
  unfold DotDims.rhsIdx
  rw [dif_neg (show ¬(0 : Fin S1024x4096.rank) ∈ D2.rhsBatch by decide), dif_pos (show (0 : Fin S1024x4096.rank) ∈ D2.rhsNonContracting by decide)]
  rfl
theorem d2_r1 (i : S256x1024.Idx) (q : D2.contr.Idx) : (D2.rhsIdx i q 1).val = (q ⟨0, by decide⟩).val :=
  D2.rhsIdx_val_of_single rfl i q

/-! ### The two products -/

/-- The first product into a zero accumulator is `l · rᵀ`. -/
theorem mm1 (l : FVec Ideal S256x1024 .bf16) (r : FVec Ideal S4096x1024 .bf16) :
    matmul D1 none l r (constant (F := Ideal) S256x4096 .f32 0x00000000#32) = mmT l r :=
  funext fun j => (Ideal.matmul_constant_zero_apply D1 none l r j).trans
    (sum_contr_eq_mmT D1 rfl rfl d1_l0 d1_l1 d1_r0 d1_r1 l r j)

/-- The second product into a zero accumulator is `l · rᵀ`. -/
theorem mm2 (l : FVec Ideal S256x4096 .bf16) (r : FVec Ideal S1024x4096 .bf16) :
    matmul D2 none l r (constant (F := Ideal) S256x1024 .f32 0x00000000#32) = mmT l r :=
  funext fun j => (Ideal.matmul_constant_zero_apply D2 none l r j).trans
    (sum_contr_eq_mmT D2 rfl rfl d2_l0 d2_l1 d2_r0 d2_r1 l r j)

/-! ### A bias row spread over the token rows -/

theorem spread1 (b : FVec Ideal S1x4096 .f32) (h1 : S1x4096.ShapeCasts S4096) (h2 : S4096.ShapeCasts S1x4096)
    (hb : S1x4096.Broadcasts S256x4096) (p : Fin 256) (k : Fin 4096) :
    broadcastTo S256x4096 (shapeCast S1x4096 (shapeCast S4096 b h1) h2) hb (ix2 p k) = b (ix2 (0 : Fin 1) k) := by
  rw [shapeCast_shapeCast]
  exact broadcastTo_1b_ab_apply b hb p k

theorem spread2 (b : FVec Ideal S1x1024 .f32) (h1 : S1x1024.ShapeCasts S1024) (h2 : S1024.ShapeCasts S1x1024)
    (hb : S1x1024.Broadcasts S256x1024) (p : Fin 256) (k : Fin 1024) :
    broadcastTo S256x1024 (shapeCast S1x1024 (shapeCast S1024 b h1) h2) hb (ix2 p k) = b (ix2 (0 : Fin 1) k) := by
  rw [shapeCast_shapeCast]
  exact broadcastTo_1b_ab_apply b hb p k

/-! ### The payload -/

/-- A block of token rows without its leading unit axis. -/
abbrev tok (v0 : Vec Ideal S1x256x1024 .bf16) : FVec Ideal S256x1024 .bf16 := shapeCast S256x1024 v0 shapeCasts_S1x256x1024_S256x1024
/-- The first weight block without its leading unit axis. -/
abbrev wt1 (v2 : Vec Ideal S1x4096x1024 .bf16) : FVec Ideal S4096x1024 .bf16 := shapeCast S4096x1024 v2 shapeCasts_S1x4096x1024_S4096x1024
/-- The second weight block without its leading unit axis. -/
abbrev wt2 (v4 : Vec Ideal S1x1024x4096 .bf16) : FVec Ideal S1024x4096 .bf16 := shapeCast S1024x4096 v4 shapeCasts_S1x1024x4096_S1024x4096

/-- The payload with its intermediate values substituted. -/
theorem pay_flat (v0 : Vec Ideal S1x256x1024 .bf16) (v2 : Vec Ideal S1x4096x1024 .bf16) (v4 : Vec Ideal S1x1024x4096 .bf16)
    (v7 : Vec Ideal S1x4096 .f32) (v10 : Vec Ideal S1x1024 .f32) :
    k0_pay1 v0 v2 v4 v7 v10 = shapeCast S1x256x1024
      (addf (matmul D2 none
          (truncf .bf16 (maximumf (addf (matmul D1 none (tok v0)
              (wt1 v2) (constant (F := Ideal) S256x4096 .f32 0x00000000#32))
            (broadcastTo S256x4096 (shapeCast S1x4096 (shapeCast S4096 v7 shapeCasts_S1x4096_S4096) shapeCasts_S4096_S1x4096) broadcasts_S1x4096_S256x4096))
            (broadcast S256x4096 (Scalar.ofBits (F := Ideal) .f32 0x00000000#32))) bitsLt_bf16_f32)
          (wt2 v4) (constant (F := Ideal) S256x1024 .f32 0x00000000#32))
        (broadcastTo S256x1024 (shapeCast S1x1024 (shapeCast S1024 v10 shapeCasts_S1x1024_S1024) shapeCasts_S1024_S1x1024) broadcasts_S1x1024_S256x1024))
      shapeCasts_S256x1024_S1x256x1024 := rfl

/-- The hidden layer: the first product plus the bias row, rectified (the change to the shorter float format after it is
    the identity). -/
theorem hidden_eq (x : FVec Ideal S256x1024 .bf16) (w : FVec Ideal S4096x1024 .bf16) (b : FVec Ideal S1x4096 .f32)
    (h1 : S1x4096.ShapeCasts S4096) (h2 : S4096.ShapeCasts S1x4096) (hb : S1x4096.Broadcasts S256x4096) (hlt : FTy.bits .bf16 < FTy.bits .f32) :
    (truncf .bf16 (maximumf (addf (matmul D1 none x w (constant (F := Ideal) S256x4096 .f32 0x00000000#32))
        (broadcastTo S256x4096 (shapeCast S1x4096 (shapeCast S4096 b h1) h2) hb))
      (broadcast S256x4096 (Scalar.ofBits (F := Ideal) .f32 0x00000000#32))) hlt : FVec Ideal S256x4096 .bf16)
      = biasRelu thr (mmT x w) b := by
  funext j
  obtain ⟨p, k, rfl⟩ : ∃ (p : Fin 256) (k : Fin 4096), j = ix2 p k := ⟨j 0, j 1, eq_ix2 j⟩
  show max (matmul D1 none x w (constant (F := Ideal) S256x4096 .f32 0x00000000#32) (ix2 p k)
      + broadcastTo S256x4096 (shapeCast S1x4096 (shapeCast S4096 b h1) h2) hb (ix2 p k)) thr
    = max (mmT x w (ix2 p k) + b (ix2 (0 : Fin 1) k)) thr
  rw [mm1, spread1]

/-- THE PAYLOAD IS A TILE of the network, under the leading unit axis. -/
theorem pay_eq (v0 : Vec Ideal S1x256x1024 .bf16) (v2 : Vec Ideal S1x4096x1024 .bf16) (v4 : Vec Ideal S1x1024x4096 .bf16)
    (v7 : Vec Ideal S1x4096 .f32) (v10 : Vec Ideal S1x1024 .f32) :
    k0_pay1 v0 v2 v4 v7 v10 = shapeCast S1x256x1024
      (tile (tok v0) (wt1 v2) v7
        (wt2 v4) v10) shapeCasts_S256x1024_S1x256x1024 := by
  rw [pay_flat, hidden_eq, mm2]
  refine congrArg (fun z => shapeCast S1x256x1024 z shapeCasts_S256x1024_S1x256x1024) (funext fun j => ?_)
  obtain ⟨p, q, rfl⟩ : ∃ (p : Fin 256) (q : Fin 1024), j = ix2 p q := ⟨j 0, j 1, eq_ix2 j⟩
  show mmT _ _ (ix2 p q) + broadcastTo S256x1024 (shapeCast S1x1024 (shapeCast S1024 v10 shapeCasts_S1x1024_S1024) shapeCasts_S1024_S1x1024) broadcasts_S1x1024_S256x1024 (ix2 p q)
    = mmT _ _ (ix2 p q) + v10 (ix2 (0 : Fin 1) q)
  rw [spread2]

/-- Entry `(0, r, c)` of the payload is entry `(r, c)` of the tile. -/
theorem pay_apply (v0 : Vec Ideal S1x256x1024 .bf16) (v2 : Vec Ideal S1x4096x1024 .bf16) (v4 : Vec Ideal S1x1024x4096 .bf16)
    (v7 : Vec Ideal S1x4096 .f32) (v10 : Vec Ideal S1x1024 .f32) (u : Fin 1) (r : Fin 256) (c : Fin 1024) :
    k0_pay1 v0 v2 v4 v7 v10 (ix3 u r c)
      = tile (tok v0) (wt1 v2) v7
        (wt2 v4) v10 (ix2 r c) := by
  rw [pay_eq]
  exact shapeCast_ab_1ab_apply _ _ u r c

end Cert.KernelIdeal.Payload

end
-- ==== Proof.Blocks.lean ====
/-
  From tiles to the whole array, and the program's result.

  The grid has 16 × 4 points. Point (e, b) is given rows [256 b, 256 b + 256) of expert `e`'s tokens, expert `e`'s two
  weight matrices, and the two bias tables whole, and writes back rows [256 b, 256 b + 256) of expert `e`'s output.
  Its tile of the network is therefore the restriction of ONE function of the arrays — `Spec.ffn` — to its block
  (`flushed_eq`), the 64 blocks cover the output array (`cover`: row `n` of expert `e` is in the block of point
  (e, n / 256)), so the array ends holding `ffn` (`final`). The arrays the region finds are the arguments: the
  tokens reshaped, the weights and biases as given (the changes of float format in front of the region are the identity).
  The one operation after the region reshapes the array back to [16384, 1024].
-/
import proofs.«128846_j1743756722200_1_alg».proof.Proof.Body
import proofs.«128846_j1743756722200_1_alg».proof.Proof.Payload
import Idealize.ShloMosaic.Lib.Pipeline.Value
import Idealize.ShloMosaic.Lib.StableHlo.Run

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Body Cert.KernelIdeal.Payload Cert.Spec

variable (m : (ℓ : Loc nD τ sig) → Buf (Elt Ideal) ℓ) (ρ : Dev nD → PrngReg)

/-! ### One point, over variables -/

/-- A point's payload at entry (0, r, q) is the network's entry (E, R, q), when the token tile's row `r` is row (E, R) of
    the tokens, the weight blocks are expert `E`'s, the bias tables are whole, and `E` is the point's first coordinate. -/
theorem point_eq (x : Vec Ideal S16x1024x1024 .bf16) (w1 : Vec Ideal S16x4096x1024 .bf16) (b1 : Vec Ideal S16x4096 .f32)
    (w2 : Vec Ideal S16x1024x4096 .bf16) (b2 : Vec Ideal S16x1024 .f32) (i : grid0.Coords)
    (v0 : Vec Ideal S1x256x1024 .bf16) (v2 : Vec Ideal S1x4096x1024 .bf16) (v4 : Vec Ideal S1x1024x4096 .bf16)
    (t2 : Vec Ideal S16x4096 .f32) (t4 : Vec Ideal S16x1024 .f32)
    (u : Fin 1) (r : Fin 256) (q : Fin 1024) (E : Fin 16) (R : Fin 1024) (hE : E.val = (i 0).val)
    (h0 : ∀ d : Fin 1024, v0 (ix3 (0 : Fin 1) r d) = x (ix3 E R d))
    (h2 : ∀ (k : Fin 4096) (d : Fin 1024), v2 (ix3 (0 : Fin 1) k d) = w1 (ix3 E k d))
    (h4 : ∀ k : Fin 4096, v4 (ix3 (0 : Fin 1) q k) = w2 (ix3 E q k))
    (ht2 : t2 = b1) (ht4 : t4 = b2) :
    k0_pay1 v0 v2 v4 (biasRow1 i t2) (biasRow2 i t4) (ix3 u r q) = ffn x w1 b1 w2 b2 (ix3 E R q) := by
  subst ht2 ht4
  rw [pay_apply]
  refine tile_eq_ffn x w1 t2 w2 t4 (tok v0) (wt1 v2) (biasRow1 i t2) (wt2 v4) (biasRow2 i t4) E R r q ?_ ?_ ?_ ?_ ?_
  · intro d; rw [← h0 d]; exact shapeCast_1ab_ab_apply v0 _ r d
  · intro k d; rw [← h2 k d]; exact shapeCast_1ab_ab_apply v2 _ k d
  · intro k; exact biasRow1_apply i t2 (ix2 (0 : Fin 1) k) (ix2 E k) hE rfl
  · intro k; rw [← h4 k]; exact shapeCast_1ab_ab_apply v4 _ q k
  · exact biasRow2_apply i t4 (ix2 (0 : Fin 1) q) (ix2 E q) hE rfl

/-! ### The index maps, decided over the 64 points -/

/-- Where each window's block sits at point `t`, relative to the output's block (e, b, 0): the token tile moves with it;
    the weight blocks follow the expert only; the bias tables do not move; and the point's first coordinate is `e`. -/
theorem idx_facts : ∀ t : Fin cfg0.N,
    win0_5.index t (0 : Fin 3) < 16 ∧ win0_5.index t (1 : Fin 3) < 4 ∧ win0_5.index t (2 : Fin 3) = 0
    ∧ win0_0.index t (0 : Fin 3) = win0_5.index t (0 : Fin 3) ∧ win0_0.index t (1 : Fin 3) = win0_5.index t (1 : Fin 3) ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_5.index t (0 : Fin 3) ∧ win0_3.index t (1 : Fin 3) = 0 ∧ win0_3.index t (2 : Fin 3) = 0
    ∧ win0_4.index t (0 : Fin 2) = 0 ∧ win0_4.index t (1 : Fin 2) = 0
    ∧ ((grid0.coords t) 0).val = win0_5.index t (0 : Fin 3) :=
  (by decide +kernel : ∀ t : Fin grid0.N, _)

/-- Every (expert, row block) is some point's output block. -/
theorem idx_onto : ∀ (e : Fin 16) (b : Fin 4), ∃ t : Fin cfg0.N, win0_5.index t = ![e.val, b.val, 0] :=
  (by decide +kernel : ∀ (e : Fin 16) (b : Fin 4), ∃ t : Fin grid0.N, win0_5.index t = ![e.val, b.val, 0])

/-! ### What the region computes -/

/-- The network of the arrays as the region finds them. -/
abbrev net (c : Dev nD) : Vec Ideal S16x1024x1024 .f32 :=
  ffn (V m c main_v1) (V m c main_v2) (V m c main_arg3) (V m c main_v3) (V m c main_arg5)

/-- WHAT POINT `t` WRITES BACK is block `t` of the network. -/
theorem flushed_eq (c : Dev nD) (t : Fin cfg0.N) :
    (dats m 0 c).flushed 5 t = ((cfg0.win 5).blk t).view.read (Elt Ideal) (net m c) := by
  show (cfg0.win 5).cut (grid0.coords t) ((dats m 0 c).after 5 t) = _
  rw [after0_5]
  unfold outsAt0
  rw [out_eq]
  obtain ⟨e0, e1, e2, a0, a1, a2, b0, b1, b2, c0, c1, d0, d1, d2, f0, f1, g0⟩ := idx_facts t
  refine funext fun (y : S1x256x1024.Idx) => ?_
  obtain ⟨u, r, q, rfl⟩ : ∃ (u : Fin 1) (r : Fin 256) (q : Fin 1024), y = ix3 u r q := ⟨y 0, y 1, y 2, eq_ix3 y⟩
  have hu : u.val = 0 := by omega
  have hr : r.val < 256 := r.isLt
  have hq : q.val < 1024 := q.isLt
  show k0_pay1 (iblk m c 0 t) (iblk m c 1 t) (iblk m c 3 t) (biasRow1 (grid0.coords t) (iblk m c 2 t)) (biasRow2 (grid0.coords t) (iblk m c 4 t)) (ix3 u r q)
    = net m c (((cfg0.win 5).blk t).view.emb (ix3 u r q))
  have hemb : ((cfg0.win 5).blk t).view.emb (ix3 u r q)
      = ix3 (⟨win0_5.index t (0 : Fin 3), e0⟩ : Fin 16) (⟨win0_5.index t (1 : Fin 3) * 256 + r.val, by omega⟩ : Fin 1024) q := by
    funext a; apply Fin.ext
    match a with
    | ⟨0, _⟩ => show win0_5.index t (0 : Fin 3) * 1 + 1 * u.val = win0_5.index t (0 : Fin 3); omega
    | ⟨1, _⟩ => show win0_5.index t (1 : Fin 3) * 256 + 1 * r.val = win0_5.index t (1 : Fin 3) * 256 + r.val; omega
    | ⟨2, _⟩ => show win0_5.index t (2 : Fin 3) * 1024 + 1 * q.val = q.val; omega
  refine (point_eq (V m c main_v1) (V m c main_v2) (V m c main_arg3) (V m c main_v3) (V m c main_arg5) (grid0.coords t)
    (iblk m c 0 t) (iblk m c 1 t) (iblk m c 3 t) (iblk m c 2 t) (iblk m c 4 t) u r q
    (⟨win0_5.index t (0 : Fin 3), e0⟩ : Fin 16) (⟨win0_5.index t (1 : Fin 3) * 256 + r.val, by omega⟩ : Fin 1024) g0.symm
    ?_ ?_ ?_ ?_ ?_).trans (congrArg (net m c) hemb.symm)
  · intro d
    have hd : d.val < 1024 := d.isLt
    show V m c main_v1 (((cfg0.win 0).blk t).view.emb (ix3 (0 : Fin 1) r d)) = V m c main_v1 _
    refine congrArg (V m c main_v1) (funext fun a => Fin.ext ?_)
    match a with
    | ⟨0, _⟩ => show win0_0.index t (0 : Fin 3) * 1 + 1 * 0 = win0_5.index t (0 : Fin 3); omega
    | ⟨1, _⟩ => show win0_0.index t (1 : Fin 3) * 256 + 1 * r.val = win0_5.index t (1 : Fin 3) * 256 + r.val; omega
    | ⟨2, _⟩ => show win0_0.index t (2 : Fin 3) * 1024 + 1 * d.val = d.val; omega
  · intro k d
    show V m c main_v2 (((cfg0.win 1).blk t).view.emb (ix3 (0 : Fin 1) k d)) = V m c main_v2 _
    refine congrArg (V m c main_v2) (funext fun a => Fin.ext ?_)
    match a with
    | ⟨0, _⟩ => show win0_1.index t (0 : Fin 3) * 1 + 1 * 0 = win0_5.index t (0 : Fin 3); omega
    | ⟨1, _⟩ => show win0_1.index t (1 : Fin 3) * 4096 + 1 * k.val = k.val; omega
    | ⟨2, _⟩ => show win0_1.index t (2 : Fin 3) * 1024 + 1 * d.val = d.val; omega
  · intro k
    show V m c main_v3 (((cfg0.win 3).blk t).view.emb (ix3 (0 : Fin 1) q k)) = V m c main_v3 _
    refine congrArg (V m c main_v3) (funext fun a => Fin.ext ?_)
    match a with
    | ⟨0, _⟩ => show win0_3.index t (0 : Fin 3) * 1 + 1 * 0 = win0_5.index t (0 : Fin 3); omega
    | ⟨1, _⟩ => show win0_3.index t (1 : Fin 3) * 1024 + 1 * q.val = q.val; omega
    | ⟨2, _⟩ => show win0_3.index t (2 : Fin 3) * 4096 + 1 * k.val = k.val; omega
  · funext z
    show V m c main_arg3 (((cfg0.win 2).blk t).view.emb z) = V m c main_arg3 z
    refine congrArg (V m c main_arg3) (funext fun a => Fin.ext ?_)
    match a with
    | ⟨0, _⟩ => show win0_2.index t (0 : Fin 2) * 16 + 1 * (z 0).val = (z 0).val; omega
    | ⟨1, _⟩ => show win0_2.index t (1 : Fin 2) * 4096 + 1 * (z 1).val = (z 1).val; omega
  · funext z
    show V m c main_arg5 (((cfg0.win 4).blk t).view.emb z) = V m c main_arg5 z
    refine congrArg (V m c main_arg5) (funext fun a => Fin.ext ?_)
    match a with
    | ⟨0, _⟩ => show win0_4.index t (0 : Fin 2) * 16 + 1 * (z 0).val = (z 0).val; omega
    | ⟨1, _⟩ => show win0_4.index t (1 : Fin 2) * 1024 + 1 * (z 1).val = (z 1).val; omega

/-- An index of the output array is in point `t`'s block iff each coordinate is in the block's range on its axis. -/
theorem mem_blk (t : Fin cfg0.N) (i : S16x1024x1024.Idx) :
    i ∈ ((cfg0.win 5).blk t).view.set ↔ ∀ a : Fin 3, win0_5.index t a * S1x256x1024.size a ≤ (i a).val
      ∧ (i a).val < win0_5.index t a * S1x256x1024.size a + S1x256x1024.size a := by
  show i ∈ ((View.whole main_v4).slice (win0_5.rect t)).set ↔ _
  rw [View.set_slice_whole, Rect.mem_set_unit]
  exact Iff.rfl

/-- THE BLOCKS COVER THE ARRAY: entry (e, n, c) is in the block of the point whose output block is (e, n / 256, 0). -/
theorem cover (i : S16x1024x1024.Idx) :
    ∃ t : Fin cfg0.N, (cfg0.win 5).flush t = true ∧ i ∈ ((cfg0.win 5).blk t).view.set := by
  have hi0 : (i 0).val < 16 := (i 0).isLt
  have hi1 : (i 1).val < 1024 := (i 1).isLt
  have hi2 : (i 2).val < 1024 := (i 2).isLt
  obtain ⟨t, ht⟩ := idx_onto ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 1024 ≤ (i 2).val ∧ (i 2).val < win0_5.index t (2 : Fin 3) * 1024 + 1024; omega

/-- THE OUTPUT ARRAY after the run is the network of the arrays the region found. -/
theorem final (c : Dev nD) : (dats m 0 c).arrAt 5 cfg0.N = net m c :=
  (dats m 0 c).arrAt_eq_of_cover 5 (net m c) (fun t _ => flushed_eq m c t) cover

end Cert.KernelIdeal.Blocks

end
-- ==== Proof.Result.lean ====
/-
  The idealized kernel's run, read: its result array holds the network of the arguments, reshaped to [16384, 1024].

  Before the region the program reshapes the tokens to [16, 1024, 1024] and changes the float format of the tokens and
  of both weight arrays (the identity on the extended reals); the bias tables go in as given. After the region one
  reshape takes the [16, 1024, 1024] output array back to [16384, 1024].
-/
import proofs.«128846_j1743756722200_1_alg».proof.Proof.Blocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.Spec

variable (m : (ℓ : Loc nD τ sig) → Buf (Elt Ideal) ℓ) (ρ : Dev nD → PrngReg)

/-! ### The arrays the region finds -/

/-- The tokens, reshaped to (expert, token, feature). -/
theorem V_tokens (c : Dev nD) : (V m c main_v1 : Vec Ideal S16x1024x1024 .bf16)
    = shapeCast S16x1024x1024 (m ((c : Thread nD τ).loc main_arg0)) shapeCasts_S16384x1024_S16x1024x1024 := by
  show StableHlo.after hostOps0 (fun b => m (c, b)) (Proc.devRef .tc main_v1) = _
  after_results
  rfl

/-- The first weights, as given. -/
theorem V_w1 (c : Dev nD) : (V m c main_v2 : Vec Ideal S16x4096x1024 .bf16) = m ((c : Thread nD τ).loc main_arg2) := by
  show StableHlo.after hostOps0 (fun b => m (c, b)) (Proc.devRef .tc main_v2) = _
  after_results
  rfl

/-- The second weights, as given. -/
theorem V_w2 (c : Dev nD) : (V m c main_v3 : Vec Ideal S16x1024x4096 .bf16) = m ((c : Thread nD τ).loc main_arg4) := by
  show StableHlo.after hostOps0 (fun b => m (c, b)) (Proc.devRef .tc main_v3) = _
  after_results
  rfl

/-- The network of the argument arrays. -/
abbrev value (c : Dev nD) : Vec Ideal S16x1024x1024 .f32 :=
  ffn (shapeCast S16x1024x1024 (m ((c : Thread nD τ).loc main_arg0)) shapeCasts_S16384x1024_S16x1024x1024)
    (m ((c : Thread nD τ).loc main_arg2)) (m ((c : Thread nD τ).loc main_arg3)) (m ((c : Thread nD τ).loc main_arg4))
    (m ((c : Thread nD τ).loc main_arg5))

theorem net_eq (c : Dev nD) : net m c = value m c := by
  show ffn (V m c main_v1) (V m c main_v2) (V m c main_arg3) (V m c main_v3) (V m c main_arg5) = _
  rw [V_tokens, V_w1, V_w2, V_main_arg3, V_main_arg5]

/-! ### The reshape after the region -/

/-- The program's result: the network of the arguments, one row per token. -/
abbrev result (c : Dev nD) : Buf (Elt Ideal) ((c : Thread nD τ).loc main_v5) :=
  shapeCast S16384x1024 (value m c) shapeCasts_S16x1024x1024_S16384x1024

theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  show shapeCast S16384x1024 (Pipeline.withArrays spec0 c (V0 m c) (fun w => (dats m 0 c).arrAt w cfg0.N)
    (Proc.devRef .tc (Pipeline.arrRef spec0 5))) shapeCasts_S16x1024x1024_S16384x1024 = _
  rw [Pipeline.withArrays_arr spec0 launch0.win.arr_inj c (V0 m c) (fun w => (dats m 0 c).arrAt w cfg0.N) 5, final, net_eq]

/-! ### The run -/

/-- Every weakly fair execution of the idealized kernel's program terminates with its result array at the network of the
    arguments, one row per token, and its arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).2 main_arg4 (Pipeline.mem_restRefs_of main_arg4 (by decide) (by decide))).trans (W_main_arg4 m (dats m) c),
      ((h c).1 4).trans (((dats m 0 c).arrAt_in 4 rfl _).trans ((A_eq m c 4).trans (V_main_arg5 m c)))⟩)
    (run_main m ρ)

end Cert.KernelIdeal.Result

end
-- ==== Proof.RefSide.lean ====
/-
  The reference computes the network.

  The reference reshapes the tokens to [16, 1024, 1024] (expert, token, feature), takes the batched product with the
  first weights over the feature axis, adds each expert's bias row to all its tokens, rectifies, takes the batched
  product with the second weights over the hidden axis, adds the second bias row, and reshapes back. Read entry by entry,
  the value before the last reshape is `Spec.ffn` of the reshaped tokens: each batched product is a sum over its one
  contracted coordinate, and the two broadcasts of a bias read the table at (expert, column).
-/
import proofs.«128846_j1743756722200_1_alg».proof.Proof.Gen.ReferenceIdeal.Read
import proofs.«128846_j1743756722200_1_alg».proof.Proof.Spec

noncomputable section

open Idealize.ShloMosaic Idealize.ShloMosaic.ValueIdx

namespace Cert.ReferenceIdeal.RefSide

open Cert.ReferenceIdeal Cert.ReferenceIdeal.Read Cert.Spec

/-! ### The composed index maps, at coordinates -/

theorem l6 (e : Fin 16) (n c : Fin 1024) (k : Fin 4096) : lidx_main_v6 (ix3 e n c) k = ix3 e n k :=
  funext fun a => Fin.ext (by match a with | ⟨0, _⟩ => rfl | ⟨1, _⟩ => rfl | ⟨2, _⟩ => rfl)
theorem r6 (e : Fin 16) (n c : Fin 1024) (k : Fin 4096) : ridx_main_v6 (ix3 e n c) k = ix3 e c k :=
  funext fun a => Fin.ext (by match a with | ⟨0, _⟩ => rfl | ⟨1, _⟩ => rfl | ⟨2, _⟩ => rfl)
theorem l1 (e : Fin 16) (n : Fin 1024) (k : Fin 4096) (d : Fin 1024) : lidx_main_v1 (ix3 e n k) d = ix3 e n d :=
  funext fun a => Fin.ext (by match a with | ⟨0, _⟩ => rfl | ⟨1, _⟩ => rfl | ⟨2, _⟩ => rfl)
theorem r1 (e : Fin 16) (n : Fin 1024) (k : Fin 4096) (d : Fin 1024) : ridx_main_v1 (ix3 e n k) d = ix3 e k d :=
  funext fun a => Fin.ext (by match a with | ⟨0, _⟩ => rfl | ⟨1, _⟩ => rfl | ⟨2, _⟩ => rfl)
theorem bias1_idx (e : Fin 16) (n : Fin 1024) (k : Fin 4096) : idx_main_v2 (idx_main_v3 (ix3 e n k)) = ix2 e k :=
  funext fun a => Fin.ext (by match a with | ⟨0, _⟩ => rfl | ⟨1, _⟩ => rfl)
theorem bias2_idx (e : Fin 16) (n c : Fin 1024) : idx_main_v7 (idx_main_v8 (ix3 e n c)) = ix2 e c :=
  funext fun a => Fin.ext (by match a with | ⟨0, _⟩ => rfl | ⟨1, _⟩ => rfl)

/-- The hidden layer of the reference at (expert, token, unit). -/
theorem hidden_apply (x0 : (⟨S16384x1024, .f32⟩ : BufTy).Contents (Elt Ideal)) (x2 : (⟨S16x4096x1024, .f32⟩ : BufTy).Contents (Elt Ideal))
    (x3 : (⟨S16x4096, .f32⟩ : BufTy).Contents (Elt Ideal)) (e : Fin 16) (n : Fin 1024) (k : Fin 4096) :
    val_main_v5 (F := Ideal) x0 x2 x3 (ix3 e n k)
      = max ((∑ d : Fin 1024, val_main_v0 (F := Ideal) x0 (ix3 e n d) * x2 (ix3 e k d)) + x3 (ix2 e k)) thr := by
  rw [val_main_v5_apply, val_main_v4_apply, val_main_v1_apply, val_main_v3_apply, val_main_v2_apply, bias1_idx,
    val_main_call0_v0_apply, val_main_call0_cst_apply]
  refine congrArg (fun s => max (s + x3 (ix2 e k)) thr) (Finset.sum_congr rfl fun d _ => ?_)
  rw [l1, r1]

/-- THE REFERENCE'S VALUE before its last reshape is the network of the reshaped tokens. -/
theorem ref_eq (x0 : (⟨S16384x1024, .f32⟩ : BufTy).Contents (Elt Ideal)) (x2 : (⟨S16x4096x1024, .f32⟩ : BufTy).Contents (Elt Ideal))
    (x3 : (⟨S16x4096, .f32⟩ : BufTy).Contents (Elt Ideal)) (x4 : (⟨S16x1024x4096, .f32⟩ : BufTy).Contents (Elt Ideal))
    (x5 : (⟨S16x1024, .f32⟩ : BufTy).Contents (Elt Ideal)) :
    val_main_v9 (F := Ideal) x0 x2 x3 x4 x5 = ffn (val_main_v0 (F := Ideal) x0) x2 x3 x4 x5 := by
  funext i
  obtain ⟨e, n, c, rfl⟩ : ∃ (e : Fin 16) (n c : Fin 1024), i = ix3 e n c := ⟨i 0, i 1, i 2, eq_ix3 i⟩
  rw [val_main_v9_apply, val_main_v6_apply, val_main_v8_apply, val_main_v7_apply, bias2_idx]
  refine congrArg (· + x5 (ix2 e c)) (Finset.sum_congr rfl fun k _ => ?_)
  rw [l6, r6, hidden_apply]

end Cert.ReferenceIdeal.RefSide

end
-- ==== Proof.lean ====
/-
  A mixture-of-experts feed-forward layer: the tiled kernel against the batched reference, on the extended reals.

  Both programs take 16384 tokens of 1024 features, grouped 1024 to an expert, and apply expert `e`'s two-layer network
  to its tokens:  out = max (x · w1[e]ᵀ + b1[e]) 0 · w2[e]ᵀ + b2[e]  (`Spec.ffn`). The per-expert token counts are an
  argument neither program reads.

  * The reference reshapes the tokens to [16, 1024, 1024], takes two batched products over the expert axis with the
    biases broadcast in between, and reshapes back (`RefSide.ref_eq`).
  * The kernel walks a 16 × 4 grid: point (e, b) computes 256 token rows of expert `e` from that expert's weight blocks
    and row `e` of each bias table (`Body.out_eq`, `Payload.pay_eq`), the 64 tiles cover the output array
    (`Blocks.final`), and a last reshape gives [16384, 1024] (`Result.run`). Shorter float formats are the identity here.

  Both results are the same reshape of the same function of the arguments, so the algebraic claim needs no law of the
  extended reals at all — in particular no finiteness of the inputs — only that each sum has the same summands.
  The ideal pass rewrote nothing, so `preserves` is trivial; the frames of the two kernels are generated, and the
  reference's frame is its run with the result dropped.
-/
import proofs.«128846_j1743756722200_1_alg».proof.Defs
import proofs.«128846_j1743756722200_1_alg».proof.Proof.Gen.Kernel
import proofs.«128846_j1743756722200_1_alg».proof.Proof.Gen.Kernel.Skeleton
import proofs.«128846_j1743756722200_1_alg».proof.Proof.Gen.Kernel.Launch
import proofs.«128846_j1743756722200_1_alg».proof.Proof.Gen.Kernel.Points
import proofs.«128846_j1743756722200_1_alg».proof.Proof.Gen.Kernel.Frame
import proofs.«128846_j1743756722200_1_alg».proof.Proof.Gen.KernelIdeal
import proofs.«128846_j1743756722200_1_alg».proof.Proof.Gen.KernelIdeal.Skeleton
import proofs.«128846_j1743756722200_1_alg».proof.Proof.Gen.KernelIdeal.Launch
import proofs.«128846_j1743756722200_1_alg».proof.Proof.Gen.KernelIdeal.Points
import proofs.«128846_j1743756722200_1_alg».proof.Proof.Gen.KernelIdeal.Frame
import proofs.«128846_j1743756722200_1_alg».proof.Proof.Gen.ReferenceIdeal
import proofs.«128846_j1743756722200_1_alg».proof.Proof.Gen.ReferenceIdeal.Run
import proofs.«128846_j1743756722200_1_alg».proof.Proof.Gen.ReferenceIdeal.Read
import proofs.«128846_j1743756722200_1_alg».proof.Proof.Gen.Pre_finite_inputs
import proofs.«128846_j1743756722200_1_alg».proof.Proof.Result
import proofs.«128846_j1743756722200_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The kernel's result array ends at the reshaped network of its arguments (`Result.run`); the reference's at its last
    stage, which is the same reshape of the network of the reshaped tokens (`RefSide.ref_eq`), of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v10_eq, a0, a2, a3, a4, a5]
  unfold Cert.ReferenceIdeal.Read.val_main_v10
  rw [Cert.ReferenceIdeal.RefSide.ref_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
